-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 76
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x1, .f32⟩
  | .hbm, ⟨43, _⟩ => ⟨S1700000x128, .f32⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  gather_S100000x1_S1700000x1_S1700000x1_1_0_n_n_0_1_11_wf : GatherDims.WF S100000x1 S1700000x1 S1700000x1 [1] [0] [] [0] [] 1 ![1, 1]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run, with its result array named: every weakly fair execution from a launch memory
  m terminates, nothing faulting, the six argument arrays as launched, and the result array holding what the last
  of the program's seven segments (three stretches of host operations and four pipelined passes) leaves there: the
  contents at the last segment boundary, a fold through the segments from the launch memory.
-/
import proofs.«139000_j1554778161807_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_last : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.KernelHost.lean ====
/-
  The host stretches of the idealized kernel program, read: what each pass finds in the arrays it reads.

  The program runs three stretches of host operations among four pipelined passes.  The first stretch builds, from
  the edge array, the source and destination index vectors (the edges followed by one self loop per node) and the
  degree factor column; the second and the third each aggregate one layer: gather the scaled features at every
  edge's source, multiply by the degree factor at its destination, and add the products into the destination rows.
  Both aggregating stretches are ONE function (aggK) of the features, the two index vectors and the degree column.
  The index vectors, the degree column and the argument arrays are written once (or never) and read unchanged at
  every later boundary.
-/
import proofs.«139000_j1554778161807_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- An index vector made ready for a gather: a negative entry counts from the end (100000 is added to it), and the
    vector becomes a column. -/
def nrm (v : (⟨S1700000, .i32⟩ : BufTy).Contents (Elt F)) : (⟨S1700000x1, .i32⟩ : BufTy).Contents (Elt F) :=
  broadcastInDim S1700000x1 ![0] bcast_S1700000_S1700000x1_0
    (select (cmpi CmpIPredicate.slt v (broadcastInDim S1700000 ![] bcast_S_S1700000 (constantI S_ 32 0#32)))
      (addi v (broadcastInDim S1700000 ![] bcast_S_S1700000 (constantI S_ 32 100000#32))) v)

/-- One layer's aggregation: the rows of H at the edges' sources, each times the degree factor at the edge's
    destination, added into the destination rows of a zero array. -/
def aggK (H : (⟨S100000x128, .f32⟩ : BufTy).Contents (Elt F)) (S D : (⟨S1700000, .i32⟩ : BufTy).Contents (Elt F))
    (K : (⟨S100000x1, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 D)
    (mulf (Host.gather gather_S100000x128_S1700000x1_S1700000x128_1_0_n_n_0_1_1128 H (nrm S))
      (broadcastInDim S1700000x128 ![0, 1] bcast_S1700000x1_S1700000x128_0_1
        (Host.gather gather_S100000x1_S1700000x1_S1700000x1_1_0_n_n_0_1_11 K (nrm D))))

variable (m : (ℓ : Loc nD τ sig) → Buf (Elt F) ℓ) (ρ : Dev nD → PrngReg)

/-- A buffer no operation of a stretch writes is read after the stretch as before it. -/
local macro "not_written" : tactic => `(tactic| (
  refine StableHlo.after_of_forall_not_mem _ _ (List.forall_iff_forall_mem.mp ?_)
  simp only [hostOps0, hostOps1, hostOps3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## The second stretch and the third: one aggregation each -/

set_option maxHeartbeats 4000000 in
/-- After the second stretch the first layer's aggregate is aggK of what the first pass left. -/
theorem W3_v34 (c : Dev nD) : W3 m ρ c (Proc.devRef .tc main_v34)
    = aggK (W2 m ρ c (Proc.devRef .tc main_v15)) (W2 m ρ c (Proc.devRef .tc main_v3)) (W2 m ρ c (Proc.devRef .tc main_v6))
        (W2 m ρ c (Proc.devRef .tc main_v14)) := by
  show StableHlo.after hostOps1 (W2 m ρ c) (Proc.devRef .tc main_v34) = _
  after_results_simp
  rfl

set_option maxHeartbeats 4000000 in
/-- After the third stretch the second layer's aggregate is aggK of what the third pass left. -/
theorem W6_v55 (c : Dev nD) : W6 m ρ c (Proc.devRef .tc main_v55)
    = aggK (W5 m ρ c (Proc.devRef .tc main_v36)) (W5 m ρ c (Proc.devRef .tc main_v3)) (W5 m ρ c (Proc.devRef .tc main_v6))
        (W5 m ρ c (Proc.devRef .tc main_v14)) := by
  show StableHlo.after hostOps3 (W5 m ρ c) (Proc.devRef .tc main_v55) = _
  after_results_simp
  rfl

/-! ## The index vectors and the degree column, read at every later boundary as the first stretch left them -/

theorem W2_v3 (c : Dev nD) : W2 m ρ c (Proc.devRef .tc main_v3) = W1 m ρ c (Proc.devRef .tc main_v3) := W2_of_ne m ρ c main_v3 (by decide)
theorem W2_v6 (c : Dev nD) : W2 m ρ c (Proc.devRef .tc main_v6) = W1 m ρ c (Proc.devRef .tc main_v6) := W2_of_ne m ρ c main_v6 (by decide)
theorem W2_v14 (c : Dev nD) : W2 m ρ c (Proc.devRef .tc main_v14) = W1 m ρ c (Proc.devRef .tc main_v14) :=
  (W2_arr m ρ c 2).trans (((dat0 (V1 m ρ) c).arrAt_in 2 rfl _).trans (A_eq0 (V1 m ρ) c 2))

theorem W3_v3 (c : Dev nD) : W3 m ρ c (Proc.devRef .tc main_v3) = W1 m ρ c (Proc.devRef .tc main_v3) :=
  (show StableHlo.after hostOps1 (W2 m ρ c) (Proc.devRef .tc main_v3) = W2 m ρ c (Proc.devRef .tc main_v3) by not_written).trans (W2_v3 m ρ c)
theorem W3_v6 (c : Dev nD) : W3 m ρ c (Proc.devRef .tc main_v6) = W1 m ρ c (Proc.devRef .tc main_v6) :=
  (show StableHlo.after hostOps1 (W2 m ρ c) (Proc.devRef .tc main_v6) = W2 m ρ c (Proc.devRef .tc main_v6) by not_written).trans (W2_v6 m ρ c)
theorem W3_v14 (c : Dev nD) : W3 m ρ c (Proc.devRef .tc main_v14) = W1 m ρ c (Proc.devRef .tc main_v14) :=
  (show StableHlo.after hostOps1 (W2 m ρ c) (Proc.devRef .tc main_v14) = W2 m ρ c (Proc.devRef .tc main_v14) by not_written).trans (W2_v14 m ρ c)

theorem W4_v14 (c : Dev nD) : W4 m ρ c (Proc.devRef .tc main_v14) = W1 m ρ c (Proc.devRef .tc main_v14) :=
  (W4_of_ne m ρ c main_v14 (by decide)).trans (W3_v14 m ρ c)

theorem W5_v3 (c : Dev nD) : W5 m ρ c (Proc.devRef .tc main_v3) = W1 m ρ c (Proc.devRef .tc main_v3) :=
  (W5_of_ne m ρ c main_v3 (by decide)).trans ((W4_of_ne m ρ c main_v3 (by decide)).trans (W3_v3 m ρ c))
theorem W5_v6 (c : Dev nD) : W5 m ρ c (Proc.devRef .tc main_v6) = W1 m ρ c (Proc.devRef .tc main_v6) :=
  (W5_of_ne m ρ c main_v6 (by decide)).trans ((W4_of_ne m ρ c main_v6 (by decide)).trans (W3_v6 m ρ c))
theorem W5_v14 (c : Dev nD) : W5 m ρ c (Proc.devRef .tc main_v14) = W1 m ρ c (Proc.devRef .tc main_v14) :=
  ((W5_arr m ρ c 2).trans (((dat2 (V4 m ρ) c).arrAt_in 2 rfl _).trans (A_eq2 (V4 m ρ) c 2))).trans (W4_v14 m ρ c)

/-! ## The argument arrays, read at the boundary where a pass takes them -/

theorem W1_arg0 (c : Dev nD) : W1 m ρ c (Proc.devRef .tc main_arg0) = m ((c : Thread nD τ).loc main_arg0) :=
  show StableHlo.after hostOps0 (W0 m ρ c) (Proc.devRef .tc main_arg0) = W0 m ρ c (Proc.devRef .tc main_arg0) by not_written
theorem W1_arg2 (c : Dev nD) : W1 m ρ c (Proc.devRef .tc main_arg2) = m ((c : Thread nD τ).loc main_arg2) :=
  show StableHlo.after hostOps0 (W0 m ρ c) (Proc.devRef .tc main_arg2) = W0 m ρ c (Proc.devRef .tc main_arg2) by not_written
theorem W1_arg3 (c : Dev nD) : W1 m ρ c (Proc.devRef .tc main_arg3) = m ((c : Thread nD τ).loc main_arg3) :=
  show StableHlo.after hostOps0 (W0 m ρ c) (Proc.devRef .tc main_arg3) = W0 m ρ c (Proc.devRef .tc main_arg3) by not_written
theorem W1_arg4 (c : Dev nD) : W1 m ρ c (Proc.devRef .tc main_arg4) = m ((c : Thread nD τ).loc main_arg4) :=
  show StableHlo.after hostOps0 (W0 m ρ c) (Proc.devRef .tc main_arg4) = W0 m ρ c (Proc.devRef .tc main_arg4) by not_written
theorem W1_arg5 (c : Dev nD) : W1 m ρ c (Proc.devRef .tc main_arg5) = m ((c : Thread nD τ).loc main_arg5) :=
  show StableHlo.after hostOps0 (W0 m ρ c) (Proc.devRef .tc main_arg5) = W0 m ρ c (Proc.devRef .tc main_arg5) by not_written

theorem W3_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by not_written).trans
    ((W2_of_ne m ρ c main_arg3 (by decide)).trans (W1_arg3 m ρ c))

theorem W3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by not_written).trans
    ((W2_of_ne m ρ c main_arg4 (by decide)).trans (W1_arg4 m ρ c))
theorem W4_arg4 (c : Dev nD) : W4 m ρ c (Proc.devRef .tc main_arg4) = m ((c : Thread nD τ).loc main_arg4) :=
  (W4_of_ne m ρ c main_arg4 (by decide)).trans (W3_arg4 m ρ c)

theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by not_written).trans
    ((W2_of_ne m ρ c main_arg5 (by decide)).trans (W1_arg5 m ρ c))
theorem W6_arg5 (c : Dev nD) : W6 m ρ c (Proc.devRef .tc main_arg5) = m ((c : Thread nD τ).loc main_arg5) :=
  (show StableHlo.after hostOps3 (W5 m ρ c) (Proc.devRef .tc main_arg5) = W5 m ρ c (Proc.devRef .tc main_arg5) by not_written).trans
    ((W5_of_ne m ρ c main_arg5 (by decide)).trans ((W4_of_ne m ρ c main_arg5 (by decide)).trans (W3_arg5 m ρ c)))

end Cert.KernelIdeal.Chain

end
-- ==== Proof.Spec.lean ====
/-
  The whole-array functions the four passes of a two-layer graph convolution compute, index by index, over the
  literal shapes of this program (100000 nodes, 128 features, 1700000 edges with the self loops), as extended reals:

  * matScale X W d : the product of X (100000 × 128) with W (128 × 128), each row r scaled by the column entry d(r, 0):
      (X · W)(r, j) · d(r, 0) = (Σₖ X(r, k) · W(k, j)) · d(r, 0);
  * biasRelu A b   : max(A(r, j) + b(j), 0), the zero being the float word 0x00000000;
  * bias A b       : A(r, j) + b(j);

  and the row a gather reads: the start index of edge e, read signed and clamped into [0, 99999] (every gather of
  this program takes whole rows of an array with 100000 rows, so its start index is clamped into that range), with
  the dimension numbers of the three gathers: rows of a 100000 × 128 array, rows of a 100000 × 1 column, entries of a
  vector of 100000.
-/
import Idealize.ShloMosaic.PureOps.Ideal
import Idealize.ShloMosaic.Lib.ValueIdx

noncomputable section

namespace Cert.Gcn

open Idealize.ShloMosaic Idealize.ShloMosaic.ValueIdx
open scoped BigOperators

/-- Nodes × features. -/
abbrev SNd : Shape := ⟨2, ![100000, 128]⟩
/-- Features × features. -/
abbrev Sdd : Shape := ⟨2, ![128, 128]⟩
/-- A column over the nodes. -/
abbrev SN1 : Shape := ⟨2, ![100000, 1]⟩
/-- A vector over the nodes. -/
abbrev SN : Shape := ⟨1, ![100000]⟩
/-- A vector over the features. -/
abbrev Sd : Shape := ⟨1, ![128]⟩
/-- Edges × features. -/
abbrev SEd : Shape := ⟨2, ![1700000, 128]⟩
/-- A column over the edges. -/
abbrev SE1 : Shape := ⟨2, ![1700000, 1]⟩
/-- A vector over the edges. -/
abbrev SE : Shape := ⟨1, ![1700000]⟩

/-- The product of X with W, row r scaled by d(r, 0). -/
def matScale (X : SNd.Idx → EReal) (W : Sdd.Idx → EReal) (d : SN1.Idx → EReal) : SNd.Idx → EReal :=
  fun i => (∑ k : Fin 128, X (ix2 ⟨(i 0).val, idx2_lt0 i⟩ k) * W (ix2 k ⟨(i 1).val, idx2_lt1 i⟩))
    * d (ix2 ⟨(i 0).val, idx2_lt0 i⟩ (0 : Fin 1))

theorem matScale_apply (X : SNd.Idx → EReal) (W : Sdd.Idx → EReal) (d : SN1.Idx → EReal) (r : Fin 100000) (j : Fin 128) :
    matScale X W d (ix2 r j) = (∑ k : Fin 128, X (ix2 r k) * W (ix2 k j)) * d (ix2 r (0 : Fin 1)) := rfl

/-- A(r, j) + b(j), cut below at zero. -/
def biasRelu (A : SNd.Idx → EReal) (b : Sd.Idx → EReal) : SNd.Idx → EReal :=
  fun i => max (A i + b (ix1 ⟨(i 1).val, idx2_lt1 i⟩)) (Ideal.ofBits .f32 0x00000000#32)

theorem biasRelu_apply (A : SNd.Idx → EReal) (b : Sd.Idx → EReal) (r : Fin 100000) (j : Fin 128) :
    biasRelu A b (ix2 r j) = max (A (ix2 r j) + b (ix1 j)) (Ideal.ofBits .f32 0x00000000#32) := rfl

/-- A(r, j) + b(j). -/
def bias (A : SNd.Idx → EReal) (b : Sd.Idx → EReal) : SNd.Idx → EReal :=
  fun i => A i + b (ix1 ⟨(i 1).val, idx2_lt1 i⟩)

theorem bias_apply (A : SNd.Idx → EReal) (b : Sd.Idx → EReal) (r : Fin 100000) (j : Fin 128) :
    bias A b (ix2 r j) = A (ix2 r j) + b (ix1 j) := rfl

/-- The row edge e's start index names: the index word read signed, clamped into [0, 99999]. -/
def row (idx : IVec SE1 32) (e : Fin 1700000) : Fin 100000 :=
  ⟨min (idx (ix2 e (0 : Fin 1))).toInt.toNat 99999, by omega⟩

/-- Whole rows of a 100000 × 128 array, one per edge. -/
abbrev gRows : GatherDims SNd SE1 SEd where
  offsetDims := [1]
  collapsedSliceDims := [0]
  operandBatchingDims := []
  startIndicesBatchingDims := []
  startIndexMap := [0]
  indexVectorDim := 1
  sliceSizes := ![1, 128]
  wf := by decide

/-- Whole rows of a 100000 × 1 column, one per edge. -/
abbrev gCol : GatherDims SN1 SE1 SE1 where
  offsetDims := [1]
  collapsedSliceDims := [0]
  operandBatchingDims := []
  startIndicesBatchingDims := []
  startIndexMap := [0]
  indexVectorDim := 1
  sliceSizes := ![1, 1]
  wf := by decide

/-- Entries of a vector of 100000, one per edge. -/
abbrev gVec : GatherDims SN SE1 SE where
  offsetDims := []
  collapsedSliceDims := [0]
  operandBatchingDims := []
  startIndicesBatchingDims := []
  startIndexMap := [0]
  indexVectorDim := 1
  sliceSizes := ![1]
  wf := by decide

end Cert.Gcn

end
-- ==== Proof.RegionMatScale.lean ====
/-
  What the two matrix-product-and-scale passes leave in their output arrays, each as ONE whole-array function of the
  arrays the pass finds when it is entered.

  A pass walks 20 grid points; at point t it reads rows 5000·t … 5000·t + 4999 of a 100000 × 128 array X, the whole
  128 × 128 array W, and rows 5000·t … 5000·t + 4999 of a 100000 × 1 column d, and writes rows 5000·t … 5000·t + 4999
  of the output. What it writes at (p, q) of the block is (Σₖ x(p, k) · w(k, q)) · d(p, 0): the narrowing of the
  operands is the identity on extended reals, the accumulator is the zero splat, and the column is broadcast along
  the features. Row r of the output lies in the block of the point r / 5000, at position r % 5000, so the 20 blocks
  cover the array and it ends holding matScale X W d.
-/
import proofs.«139000_j1554778161807_2_alg».proof.Proof.Spec
import proofs.«139000_j1554778161807_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The payload at an index -/

/-- A column [a, 1] broadcast to [a, b], read at (p, c), is the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a [5000, 128] block with a [128, 128] array into the zero splat, read at (p, q): the sum over the
    one contracted axis of the products. -/
theorem matmul0_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have l0 : ∀ qq : dot_S5000x128_S128x128_S5000x128_1_0_0_1_n_n.contr.Idx, (dot_S5000x128_S128x128_S5000x128_1_0_0_1_n_n.lhsIdx (ix2 p q) qq 0).val = p.val := fun qq => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  have r1 : ∀ qq : dot_S5000x128_S128x128_S5000x128_1_0_0_1_n_n.contr.Idx, (dot_S5000x128_S128x128_S5000x128_1_0_0_1_n_n.rhsIdx (ix2 p q) qq 1).val = q.val := fun qq => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact l0 _
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl (ix2 p q) _).trans hk
      | ⟨1, _⟩ => exact r1 _)
  rw [el, er]

/-- What the first pass's body stores at (p, q) of its block, from the blocks it loads. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, shapeCast_self, broadcastTo_a1_ab_apply, matmul0_apply]
  rfl

/-- What the second pass's body stores at (p, q) of its block, from the blocks it loads. -/
theorem pay2_apply (x0 : Vec Ideal S5000x128 .f32) (x1 : Vec Ideal S128x128 .f32) (x2 : Vec Ideal S5000x1 .f32)
    (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  rw [mulf_apply, shapeCast_self, shapeCast_self, broadcastTo_a1_ab_apply, matmul0_apply]
  rfl

/-! ## The first pass -/

section Region0

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 20 grid points: point t reads row block t of the first operand and of the column,
    block (0, 0) of the second operand, and writes row block t of the output. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row 5000·t + p of a 100000-row array, for a grid point t and a row p of its block. -/
abbrev rowOf (t : Fin 20) (p : Fin 5000) : Fin 100000 := ⟨t.val * 5000 + p.val, by have := t.isLt; have := p.isLt; omega⟩

/-- Point t's block of the first operand is rows 5000·t … of the array. -/
theorem iblk0_0_apply (c : Dev nD) (t : Fin cfg0.N) (p : Fin 5000) (k : Fin 128) :
    (iblk0 (F := Ideal) V c 0 t : Vec Ideal S5000x128 .f32) (ix2 p k) = V c main_arg0 (ix2 (rowOf (t.cast N_0) p) k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Every point's block of the second operand is the whole array. -/
theorem iblk0_1_apply (c : Dev nD) (t : Fin cfg0.N) (k : Fin 128) (q : Fin 128) :
    (iblk0 (F := Ideal) V c 1 t : Vec Ideal S128x128 .f32) (ix2 k q) = V c main_arg2 (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Point t's block of the column is rows 5000·t … of the column. -/
theorem iblk0_2_apply (c : Dev nD) (t : Fin cfg0.N) (p : Fin 5000) :
    (iblk0 (F := Ideal) V c 2 t : Vec Ideal S5000x1 .f32) (ix2 p (0 : Fin 1)) = V c main_v14 (ix2 (rowOf (t.cast N_0) p) (0 : Fin 1)) := by
  obtain ⟨-, -, -, -, e4, e5, -⟩ := idx_facts0 t
  unfold iblk0
  rw [View.read_apply]
  show V c main_v14 _ = V c main_v14 _
  congr 1
  funext a
  apply Fin.ext
  match a with
  | ⟨0, _⟩ => show win0_2.index t (0 : Fin 2) * 5000 + 1 * p.val = t.val * 5000 + p.val; rw [e4]; omega
  | ⟨1, _⟩ => show win0_2.index t (1 : Fin 2) * 1 + 1 * 0 = 0; rw [e5]

/-- WHAT POINT t WRITES BACK is block t of matScale of the arrays as the pass finds them. -/
theorem flushed_eq0 (c : Dev nD) (t : Fin cfg0.N) :
    (dat0 (F := Ideal) V c).flushed 3 t = ((cfg0.win 3).blk t).view.read (Elt Ideal) (Cert.Gcn.matScale (V c main_arg0) (V c main_arg2) (V c main_v14)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  funext y
  obtain ⟨p, q, rfl⟩ : ∃ (p : Fin 5000) (q : Fin 128), y = ix2 p q := ⟨y 0, y 1, eq_ix2 (n0 := 5000) (n1 := 128) y⟩
  have hx : (win0 3).xinj (grid0.coords t) (ix2 p q) = ix2 p q := funext fun a => by
    match a with
    | ⟨0, _⟩ => rfl
    | ⟨1, _⟩ => rfl
  show k0_pay1 (F := Ideal) (iblk0 V c 0 t) (iblk0 V c 1 t) (iblk0 V c 2 t) ((win0 3).xinj (grid0.coords t) (ix2 p q)) = _
  rw [hx, pay0_apply, View.read_apply]
  obtain ⟨-, -, -, -, -, -, e6, e7⟩ := idx_facts0 t
  have he : ((View.whole main_v15).slice ((win0 3).rect t)).emb (ix2 p q) = ix2 (rowOf (t.cast N_0) p) q := by
    funext a
    apply Fin.ext
    match a with
    | ⟨0, _⟩ => show win0_3.index t (0 : Fin 2) * 5000 + 1 * p.val = t.val * 5000 + p.val; rw [e6]; omega
    | ⟨1, _⟩ => show win0_3.index t (1 : Fin 2) * 128 + 1 * q.val = q.val; rw [e7]; omega
  show _ = Cert.Gcn.matScale (V c main_arg0) (V c main_arg2) (V c main_v14) (((View.whole main_v15).slice ((win0 3).rect t)).emb (ix2 p q))
  rw [he, Cert.Gcn.matScale_apply, iblk0_2_apply]
  congr 1
  exact Finset.sum_congr rfl fun k _ => by rw [iblk0_0_apply, iblk0_1_apply]

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- THE COVER: row r of the output lies in the block of the point r / 5000 (20 blocks of 5000 rows). -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- THE OUTPUT ARRAY after the first pass: matScale of the three arrays the pass finds when it is entered. -/
theorem final0 (c : Dev nD) :
    (dat0 (F := Ideal) V c).arrAt 3 cfg0.N = Cert.Gcn.matScale (V c main_arg0) (V c main_arg2) (V c main_v14) :=
  (dat0 (F := Ideal) V c).arrAt_eq_of_cover 3 (Cert.Gcn.matScale (V c main_arg0) (V c main_arg2) (V c main_v14))
    (fun t _ => flushed_eq0 V c t) cover0

end Region0

/-! ## The second pass -/

section Region2

variable (V : (c : Dev nD) → (b : Ref sig .tc) → Buf (Elt Ideal) ((c : Thread nD τ).loc b))

/-- The index maps, decided over the 20 grid points: point t reads row block t of the first operand and of the column,
    block (0, 0) of the second operand, and writes row block t of the output. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Point t's block of the first operand is rows 5000·t … of the array. -/
theorem iblk2_0_apply (c : Dev nD) (t : Fin cfg2.N) (p : Fin 5000) (k : Fin 128) :
    (iblk2 (F := Ideal) V c 0 t : Vec Ideal S5000x128 .f32) (ix2 p k) = V c main_v35 (ix2 (rowOf (t.cast N_2) p) k) := by
  obtain ⟨e0, e1, -⟩ := idx_facts2 t
  unfold iblk2
  rw [View.read_apply]
  show V c main_v35 _ = V c main_v35 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Every point's block of the second operand is the whole array. -/
theorem iblk2_1_apply (c : Dev nD) (t : Fin cfg2.N) (k : Fin 128) (q : Fin 128) :
    (iblk2 (F := Ideal) V c 1 t : Vec Ideal S128x128 .f32) (ix2 k q) = V c main_arg4 (ix2 k q) := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- Point t's block of the column is rows 5000·t … of the column. -/
theorem iblk2_2_apply (c : Dev nD) (t : Fin cfg2.N) (p : Fin 5000) :
    (iblk2 (F := Ideal) V c 2 t : Vec Ideal S5000x1 .f32) (ix2 p (0 : Fin 1)) = V c main_v14 (ix2 (rowOf (t.cast N_2) p) (0 : Fin 1)) := by
  obtain ⟨-, -, -, -, e4, e5, -⟩ := idx_facts2 t
  unfold iblk2
  rw [View.read_apply]
  show V c main_v14 _ = V c main_v14 _
  congr 1
  funext a
  apply Fin.ext
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

/-- WHAT POINT t WRITES BACK is block t of matScale of the arrays as the pass finds them. -/
theorem flushed_eq2 (c : Dev nD) (t : Fin cfg2.N) :
    (dat2 (F := Ideal) V c).flushed 3 t = ((cfg2.win 3).blk t).view.read (Elt Ideal) (Cert.Gcn.matScale (V c main_v35) (V c main_arg4) (V c main_v14)) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x128) hz, View.ld_unit_zero (S := S5000x1) hz]
  funext y
  obtain ⟨p, q, rfl⟩ : ∃ (p : Fin 5000) (q : Fin 128), y = ix2 p q := ⟨y 0, y 1, eq_ix2 (n0 := 5000) (n1 := 128) y⟩
  have hx : (win2 3).xinj (grid2.coords t) (ix2 p q) = ix2 p q := funext fun a => by
    match a with
    | ⟨0, _⟩ => rfl
    | ⟨1, _⟩ => rfl
  show k2_pay1 (F := Ideal) (iblk2 V c 0 t) (iblk2 V c 1 t) (iblk2 V c 2 t) ((win2 3).xinj (grid2.coords t) (ix2 p q)) = _
  rw [hx, pay2_apply, View.read_apply]
  obtain ⟨-, -, -, -, -, -, e6, e7⟩ := idx_facts2 t
  have he : ((View.whole main_v36).slice ((win2 3).rect t)).emb (ix2 p q) = ix2 (rowOf (t.cast N_2) p) q := by
    funext a
    apply Fin.ext
    match a with
    | ⟨0, _⟩ => show win2_3.index t (0 : Fin 2) * 5000 + 1 * p.val = t.val * 5000 + p.val; rw [e6]; omega
    | ⟨1, _⟩ => show win2_3.index t (1 : Fin 2) * 128 + 1 * q.val = q.val; rw [e7]; omega
  show _ = Cert.Gcn.matScale (V c main_v35) (V c main_arg4) (V c main_v14) (((View.whole main_v36).slice ((win2 3).rect t)).emb (ix2 p q))
  rw [he, Cert.Gcn.matScale_apply, iblk2_2_apply]
  congr 1
  exact Finset.sum_congr rfl fun k _ => by rw [iblk2_0_apply, iblk2_1_apply]

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v36).slice (win2_3.rect t)).set ↔ _
  rw [View.set_slice_whole, Rect.mem_set_unit]
  exact Iff.rfl

/-- THE COVER: row r of the output lies in the block of the point r / 5000 (20 blocks of 5000 rows). -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by omega⟩
  have ht : t.val = (i 0).val / 5000 := rfl
  obtain ⟨-, -, -, -, -, -, e6, e7⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

/-- THE OUTPUT ARRAY after the second pass: matScale of the three arrays the pass finds when it is entered. -/
theorem final2 (c : Dev nD) :
    (dat2 (F := Ideal) V c).arrAt 3 cfg2.N = Cert.Gcn.matScale (V c main_v35) (V c main_arg4) (V c main_v14) :=
  (dat2 (F := Ideal) V c).arrAt_eq_of_cover 3 (Cert.Gcn.matScale (V c main_v35) (V c main_arg4) (V c main_v14))
    (fun t _ => flushed_eq2 V c t) cover2

end Region2

end Cert.KernelIdeal.RegionValue

end
-- ==== Proof.RegionBias.lean ====
/-
  What the two bias passes leave in their output arrays, each as one whole-array function of the arrays the
  pass finds when it is entered: the first pass adds the feature vector b to every row of A and cuts below at
  zero, the second only adds. Each pass walks 20 blocks of 5000 rows; block t of the output is the payload of
  block t of A and the whole of b, and the 20 blocks tile the 100000 rows.
-/
import proofs.«139000_j1554778161807_2_alg».proof.Proof.Spec
import proofs.«139000_j1554778161807_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.RegionBiasValue

open Idealize.ShloMosaic Idealize.ShloMosaic.TcCoe Idealize.SL.Sem Idealize.ShloMosaic.ValueIdx
open Idealize.ShloMosaic.Pipeline (Dat)
open Cert.KernelIdeal Cert.KernelIdeal.Gen

/-! ## The payloads at an index, and two general facts -/

/-- The payload of the first pass at an index: the row entry plus the vector entry, cut below at zero. -/
theorem pay1_apply (x0 : Vec Ideal S5000x128 .f32) (x1 : Vec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  rw [maximumf_apply, addf_apply, broadcast_apply, shapeCast_self, broadcastTo_1b_ab_apply, shapeCast_a_1a_apply]
  rfl

/-- The payload of the second pass at an index: the row entry plus the vector entry. -/
theorem pay3_apply (x0 : Vec Ideal S5000x128 .f32) (x1 : Vec Ideal S128 .f32) (p : Fin 5000) (q : Fin 128) :
    k3_pay1 (F := Ideal) x0 x1 (ix2 p q) = x0 (ix2 p q) + x1 (ix1 q) := by
  unfold k3_pay1
  rw [addf_apply, shapeCast_self, broadcastTo_1b_ab_apply, shapeCast_a_1a_apply]

/-- The zero offsets of a rank-2 access, as the constant function. -/
theorem hz2 : (![0, 0] : Fin 2 → Nat) = fun _ => 0 := funext fun a => by fin_cases a <;> rfl
/-- The zero offset of a rank-1 access, as the constant function. -/
theorem hz1 : (![0] : Fin 1 → Nat) = fun _ => 0 := funext fun a => by fin_cases a; rfl

/-- Two functions of a rank-2 index that agree at every pair of coordinates are equal. -/
theorem ext_ix2 {α : Type} {n0 n1 : Nat} (f g : (⟨2, ![n0, n1]⟩ : Shape).Idx → α)
    (h : ∀ (p : Fin n0) (q : Fin n1), f (ix2 p q) = g (ix2 p q)) : f = g :=
  funext fun y => by rw [eq_ix2 y]; exact h _ _

variable (V : (c : Dev nD) → (b : Ref sig .tc) → Buf (Elt Ideal) ((c : Thread nD τ).loc b))

/-! ## The first pass: max(A + b, 0) -/

/-- The block index maps, decided over the 20 points: the row block of A moves with the output's, which is the
    point's number; every column block is block 0, and the vector's one block is block 0. -/
theorem idx_facts1 : ∀ t : Fin cfg1.N, win1_0.index t (0 : Fin 2) = win1_2.index t (0 : Fin 2)
    ∧ win1_0.index t (1 : Fin 2) = 0 ∧ win1_1.index t (0 : Fin 1) = 0
    ∧ win1_2.index t (1 : Fin 2) = 0 ∧ win1_2.index t (0 : Fin 2) = t.val :=
  (by decide +kernel : ∀ t : Fin grid1.N, _)

/-- Row t·5000 + p is one of the 100000 rows. -/
theorem row_lt1 (t : Fin cfg1.N) (p : Fin 5000) : t.val * 5000 + p.val < 100000 := by
  have hN : cfg1.N = 20 := N_1
  have h1 := t.isLt; have h2 := p.isLt; omega

/-- Entry (p, q) of block t of A is entry (t·5000 + p, q) of A. -/
theorem iblk1_0_apply (c : Dev nD) (t : Fin cfg1.N) (p : Fin 5000) (q : Fin 128) :
    iblk1 V c 0 t (ix2 p q) = V c main_v34 (ix2 (⟨t.val * 5000 + p.val, row_lt1 t p⟩ : Fin 100000) q) := by
  obtain ⟨e0, e1, e2, e3, e4⟩ := idx_facts1 t
  show V c main_v34 (((cfg1.win 0).blk t).view.emb (ix2 p q)) = _
  refine congrArg (V c main_v34) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- Entry q of the one block of b is entry q of b. -/
theorem iblk1_1_apply (c : Dev nD) (t : Fin cfg1.N) (q : Fin 128) :
    iblk1 V c 1 t (ix1 q) = V c main_arg3 (ix1 q) := by
  obtain ⟨e0, e1, e2, e3, e4⟩ := idx_facts1 t
  show V c main_arg3 (((cfg1.win 1).blk t).view.emb (ix1 q)) = _
  refine congrArg (V c main_arg3) ?_
  funext a; apply Fin.ext
  match a with
  | ⟨0, _⟩ => show win1_1.index t (0 : Fin 1) * 128 + 1 * q.val = q.val; omega

/-- Entry (p, q) of block t of the output array is its entry (t·5000 + p, q). -/
theorem emb1_2 (t : Fin cfg1.N) (p : Fin 5000) (q : Fin 128) :
    ((cfg1.win 2).blk t).view.emb (ix2 p q) = ix2 (⟨t.val * 5000 + p.val, row_lt1 t p⟩ : Fin 100000) q := by
  obtain ⟨e0, e1, e2, e3, e4⟩ := idx_facts1 t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- An index of the output block, seen as an index of the staging buffer, is itself. -/
theorem xinj1 (t : Fin cfg1.N) (p : Fin 5000) (q : Fin 128) :
    (win1 2).xinj (grid1.coords t) (ix2 p q) = ix2 p q := by
  funext a; match a with | ⟨0, _⟩ => rfl | ⟨1, _⟩ => rfl

/-- Entry (p, q) of what point t leaves in the output's staging buffer is the whole-array function at (t·5000 + p, q). -/
theorem blk1_apply (c : Dev nD) (t : Fin cfg1.N) (p : Fin 5000) (q : Fin 128) :
    (win1 2).cut (grid1.coords t) (k1_pay1 (iblk1 V c 0 t) (iblk1 V c 1 t)) (ix2 p q)
      = ((cfg1.win 2).blk t).view.read (Elt Ideal) (Cert.Gcn.biasRelu (V c main_v34) (V c main_arg3)) (ix2 p q) := by
  show k1_pay1 (iblk1 V c 0 t) (iblk1 V c 1 t) ((win1 2).xinj (grid1.coords t) (ix2 p q))
    = Cert.Gcn.biasRelu (V c main_v34) (V c main_arg3) (((cfg1.win 2).blk t).view.emb (ix2 p q))
  rw [xinj1, pay1_apply, emb1_2, Cert.Gcn.biasRelu_apply, iblk1_0_apply, iblk1_1_apply]

/-- What point t writes back is block t of the whole-array function of A and b. -/
theorem flushed_eq1 (c : Dev nD) (t : Fin cfg1.N) :
    (dat1 (F := Ideal) V c).flushed 2 t = ((cfg1.win 2).blk t).view.read (Elt Ideal) (Cert.Gcn.biasRelu (V c main_v34) (V c main_arg3)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  exact ext_ix2 (n0 := 5000) (n1 := 128) _ _ (blk1_apply V c t)

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v35).slice (win1_2.rect t)).set ↔ _
  rw [View.set_slice_whole, Rect.mem_set_unit]
  exact Iff.rfl

/-- The 20 blocks of 5000 rows tile the 100000 rows: row r is in the block of point r / 5000, and every point writes back. -/
theorem cover1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  refine ⟨t, flush1_2 t, ?_⟩
  obtain ⟨e0, e1, e2, e3, e4⟩ := idx_facts1 t
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The first pass leaves max(A(r, j) + b(j), 0) in its output array, A and b as the pass finds them. -/
theorem final1 (c : Dev nD) : (dat1 (F := Ideal) V c).arrAt 2 cfg1.N = Cert.Gcn.biasRelu (V c main_v34) (V c main_arg3) :=
  (dat1 V c).arrAt_eq_of_cover 2 (Cert.Gcn.biasRelu (V c main_v34) (V c main_arg3)) (fun t _ => flushed_eq1 V c t) cover1

/-! ## The second pass: A + b -/

/-- The block index maps, decided over the 20 points: the row block of A moves with the output's, which is the
    point's number; every column block is block 0, and the vector's one block is block 0. -/
theorem idx_facts3 : ∀ t : Fin cfg3.N, win3_0.index t (0 : Fin 2) = win3_2.index t (0 : Fin 2)
    ∧ win3_0.index t (1 : Fin 2) = 0 ∧ win3_1.index t (0 : Fin 1) = 0
    ∧ win3_2.index t (1 : Fin 2) = 0 ∧ win3_2.index t (0 : Fin 2) = t.val :=
  (by decide +kernel : ∀ t : Fin grid3.N, _)

/-- Row t·5000 + p is one of the 100000 rows. -/
theorem row_lt3 (t : Fin cfg3.N) (p : Fin 5000) : t.val * 5000 + p.val < 100000 := by
  have hN : cfg3.N = 20 := N_3
  have h1 := t.isLt; have h2 := p.isLt; omega

/-- Entry (p, q) of block t of A is entry (t·5000 + p, q) of A. -/
theorem iblk3_0_apply (c : Dev nD) (t : Fin cfg3.N) (p : Fin 5000) (q : Fin 128) :
    iblk3 V c 0 t (ix2 p q) = V c main_v55 (ix2 (⟨t.val * 5000 + p.val, row_lt3 t p⟩ : Fin 100000) q) := by
  obtain ⟨e0, e1, e2, e3, e4⟩ := idx_facts3 t
  show V c main_v55 (((cfg3.win 0).blk t).view.emb (ix2 p q)) = _
  refine congrArg (V c main_v55) ?_
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

/-- Entry q of the one block of b is entry q of b. -/
theorem iblk3_1_apply (c : Dev nD) (t : Fin cfg3.N) (q : Fin 128) :
    iblk3 V c 1 t (ix1 q) = V c main_arg5 (ix1 q) := by
  obtain ⟨e0, e1, e2, e3, e4⟩ := idx_facts3 t
  show V c main_arg5 (((cfg3.win 1).blk t).view.emb (ix1 q)) = _
  refine congrArg (V c main_arg5) ?_
  funext a; apply Fin.ext
  match a with
  | ⟨0, _⟩ => show win3_1.index t (0 : Fin 1) * 128 + 1 * q.val = q.val; omega

/-- Entry (p, q) of block t of the output array is its entry (t·5000 + p, q). -/
theorem emb3_2 (t : Fin cfg3.N) (p : Fin 5000) (q : Fin 128) :
    ((cfg3.win 2).blk t).view.emb (ix2 p q) = ix2 (⟨t.val * 5000 + p.val, row_lt3 t p⟩ : Fin 100000) q := by
  obtain ⟨e0, e1, e2, e3, e4⟩ := idx_facts3 t
  funext a; apply Fin.ext
  match a with
  | ⟨0, _⟩ => show win3_2.index t (0 : Fin 2) * 5000 + 1 * p.val = t.val * 5000 + p.val; omega
  | ⟨1, _⟩ => show win3_2.index t (1 : Fin 2) * 128 + 1 * q.val = q.val; omega

/-- An index of the output block, seen as an index of the staging buffer, is itself. -/
theorem xinj3 (t : Fin cfg3.N) (p : Fin 5000) (q : Fin 128) :
    (win3 2).xinj (grid3.coords t) (ix2 p q) = ix2 p q := by
  funext a; match a with | ⟨0, _⟩ => rfl | ⟨1, _⟩ => rfl

/-- Entry (p, q) of what point t leaves in the output's staging buffer is the whole-array function at (t·5000 + p, q). -/
theorem blk3_apply (c : Dev nD) (t : Fin cfg3.N) (p : Fin 5000) (q : Fin 128) :
    (win3 2).cut (grid3.coords t) (k3_pay1 (iblk3 V c 0 t) (iblk3 V c 1 t)) (ix2 p q)
      = ((cfg3.win 2).blk t).view.read (Elt Ideal) (Cert.Gcn.bias (V c main_v55) (V c main_arg5)) (ix2 p q) := by
  show k3_pay1 (iblk3 V c 0 t) (iblk3 V c 1 t) ((win3 2).xinj (grid3.coords t) (ix2 p q))
    = Cert.Gcn.bias (V c main_v55) (V c main_arg5) (((cfg3.win 2).blk t).view.emb (ix2 p q))
  rw [xinj3, pay3_apply, emb3_2, Cert.Gcn.bias_apply, iblk3_0_apply, iblk3_1_apply]

/-- What point t writes back is block t of the whole-array function of A and b. -/
theorem flushed_eq3 (c : Dev nD) (t : Fin cfg3.N) :
    (dat3 (F := Ideal) V c).flushed 2 t = ((cfg3.win 2).blk t).view.read (Elt Ideal) (Cert.Gcn.bias (V c main_v55) (V c main_arg5)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  exact ext_ix2 (n0 := 5000) (n1 := 128) _ _ (blk3_apply V c t)

/-- An index of the array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v56).slice (win3_2.rect t)).set ↔ _
  rw [View.set_slice_whole, Rect.mem_set_unit]
  exact Iff.rfl

/-- The 20 blocks of 5000 rows tile the 100000 rows: row r is in the block of point r / 5000, and every point writes back. -/
theorem cover3 (i : S100000x128.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  obtain ⟨t, ht⟩ : ∃ t : Fin cfg3.N, t.val = (i 0).val / 5000 := ⟨⟨(i 0).val / 5000, by omega⟩, rfl⟩
  refine ⟨t, flush3_2 t, ?_⟩
  obtain ⟨e0, e1, e2, e3, e4⟩ := idx_facts3 t
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The second pass leaves A(r, j) + b(j) in its output array, A and b as the pass finds them. -/
theorem final3 (c : Dev nD) : (dat3 (F := Ideal) V c).arrAt 2 cfg3.N = Cert.Gcn.bias (V c main_v55) (V c main_arg5) :=
  (dat3 V c).arrAt_eq_of_cover 2 (Cert.Gcn.bias (V c main_v55) (V c main_arg5)) (fun t _ => flushed_eq3 V c t) cover3

end Cert.KernelIdeal.RegionBiasValue

end
-- ==== Proof.KernelValue.lean ====
/-
  The idealized kernel program's result array, through its seven segments: at the last boundary it holds
  bias(L2, b2), where L1 = aggK(matScale(x, W1, K), S, D, K) is the first layer's aggregate, H1 = biasRelu(L1, b1) the
  hidden features, L2 = aggK(matScale(H1, W2, K), S, D, K) the second layer's aggregate, and S, D, K are the source
  and destination index vectors and the degree column the first stretch of host operations leaves.
  Each pass contributes its whole-array function of what it finds at its entry, each aggregating stretch aggK; the
  index vectors, the degree column and the arguments are read at every boundary as first written.
-/
import proofs.«139000_j1554778161807_2_alg».proof.Proof.KernelHost
import proofs.«139000_j1554778161807_2_alg».proof.Proof.RegionMatScale
import proofs.«139000_j1554778161807_2_alg».proof.Proof.RegionBias

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.RegionValue Cert.KernelIdeal.RegionBiasValue

variable (m : (ℓ : Loc nD τ sig) → Buf (Elt Ideal) ℓ) (ρ : Dev nD → PrngReg)

/-- The first layer's aggregate. -/
def L1 (c : Dev nD) : Cert.Gcn.SNd.Idx → EReal :=
  aggK (F := Ideal) (Cert.Gcn.matScale (m ((c : Thread nD τ).loc main_arg0)) (m ((c : Thread nD τ).loc main_arg2)) (W1 m ρ c (Proc.devRef .tc main_v14)))
    (W1 m ρ c (Proc.devRef .tc main_v3)) (W1 m ρ c (Proc.devRef .tc main_v6)) (W1 m ρ c (Proc.devRef .tc main_v14))

/-- The hidden features. -/
def H1 (c : Dev nD) : Cert.Gcn.SNd.Idx → EReal := Cert.Gcn.biasRelu (L1 m ρ c) (m ((c : Thread nD τ).loc main_arg3))

/-- The second layer's aggregate. -/
def L2 (c : Dev nD) : Cert.Gcn.SNd.Idx → EReal :=
  aggK (F := Ideal) (Cert.Gcn.matScale (H1 m ρ c) (m ((c : Thread nD τ).loc main_arg4)) (W1 m ρ c (Proc.devRef .tc main_v14)))
    (W1 m ρ c (Proc.devRef .tc main_v3)) (W1 m ρ c (Proc.devRef .tc main_v6)) (W1 m ρ c (Proc.devRef .tc main_v14))

/-- After the first pass: the scaled product of the features with the first weight matrix. -/
theorem W2_v15 (c : Dev nD) : W2 m ρ c (Proc.devRef .tc main_v15)
    = Cert.Gcn.matScale (m ((c : Thread nD τ).loc main_arg0)) (m ((c : Thread nD τ).loc main_arg2)) (W1 m ρ c (Proc.devRef .tc main_v14)) := by
  refine (W2_arr m ρ c 3).trans ((final0 (V1 m ρ) c).trans ?_)
  rw [show V1 m ρ c main_arg0 = m ((c : Thread nD τ).loc main_arg0) from W1_arg0 m ρ c,
    show V1 m ρ c main_arg2 = m ((c : Thread nD τ).loc main_arg2) from W1_arg2 m ρ c]

/-- After the second stretch: the first layer's aggregate. -/
theorem W3_v34_L1 (c : Dev nD) : W3 m ρ c (Proc.devRef .tc main_v34) = L1 m ρ c := by
  rw [W3_v34, W2_v15, W2_v3, W2_v6, W2_v14]; rfl

/-- After the second pass: the hidden features. -/
theorem W4_v35 (c : Dev nD) : W4 m ρ c (Proc.devRef .tc main_v35) = H1 m ρ c := by
  refine (W4_arr m ρ c 2).trans ((final1 (V3 m ρ) c).trans ?_)
  rw [show V3 m ρ c main_v34 = L1 m ρ c from W3_v34_L1 m ρ c,
    show V3 m ρ c main_arg3 = m ((c : Thread nD τ).loc main_arg3) from W3_arg3 m ρ c]; rfl

/-- After the third pass: the scaled product of the hidden features with the second weight matrix. -/
theorem W5_v36 (c : Dev nD) : W5 m ρ c (Proc.devRef .tc main_v36)
    = Cert.Gcn.matScale (H1 m ρ c) (m ((c : Thread nD τ).loc main_arg4)) (W1 m ρ c (Proc.devRef .tc main_v14)) := by
  refine (W5_arr m ρ c 3).trans ((final2 (V4 m ρ) c).trans ?_)
  rw [show V4 m ρ c main_v35 = H1 m ρ c from W4_v35 m ρ c,
    show V4 m ρ c main_arg4 = m ((c : Thread nD τ).loc main_arg4) from W4_arg4 m ρ c,
    show V4 m ρ c main_v14 = W1 m ρ c (Proc.devRef .tc main_v14) from W4_v14 m ρ c]

/-- After the third stretch: the second layer's aggregate. -/
theorem W6_v55_L2 (c : Dev nD) : W6 m ρ c (Proc.devRef .tc main_v55) = L2 m ρ c := by
  rw [W6_v55, W5_v36, W5_v3, W5_v6, W5_v14]; rfl

/-- After the last pass: the result. -/
theorem last_eq (c : Dev nD) : W7 m ρ c (Proc.devRef .tc main_v56)
    = Cert.Gcn.bias (L2 m ρ c) (m ((c : Thread nD τ).loc main_arg5)) := by
  refine (W7_arr m ρ c 2).trans ((final3 (V6 m ρ) c).trans ?_)
  rw [show V6 m ρ c main_v55 = L2 m ρ c from W6_v55_L2 m ρ c,
    show V6 m ρ c main_arg5 = m ((c : Thread nD τ).loc main_arg5) from W6_arg5 m ρ c]

end Cert.KernelIdeal.Chain

end
-- ==== Proof.RefValue.lean ====
/-
  The idealized reference program's result as one structured function of its six arguments.

  Each of its two layers multiplies the features by a weight matrix (prodR), gathers the product's rows at the edges'
  sources, scales every edge's row by the product of the degree factors at the edge's two ends, adds the rows into
  their destination rows (aggR), and adds the bias (biasR); a cut at zero (reluR) sits between the layers.  The source
  and destination index vectors (srcR, dstR: the edges followed by one self loop per node) and the degree factor
  (degR: one over the square root of the in-degree, at least 1) depend on the edge array only.  The composed term
  the program's run ends at is, read structurally, refOut.
-/
import proofs.«139000_j1554778161807_2_alg».proof.Proof.Gen.ReferenceIdeal.Run

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The edges' sources followed by the nodes themselves. -/
def srcR (e1 : (⟨S2x1600000, .i32⟩ : BufTy).Contents (Elt F)) : (⟨S1700000, .i32⟩ : BufTy).Contents (Elt F) :=
  concatenate S1700000 0 [⟨S1600000, (shapeCast _ (extractStridedSlice S1x1600000 ![0, 0] e1 slices_S2x1600000_S1x1600000_0_0) shapeCasts_S1x1600000_S1600000)⟩, ⟨S100000, (iotaInDim S100000 32 0)⟩] concatenates_S1600000_S100000_S1700000_d0

/-- The edges' destinations followed by the nodes themselves. -/
def dstR (e1 : (⟨S2x1600000, .i32⟩ : BufTy).Contents (Elt F)) : (⟨S1700000, .i32⟩ : BufTy).Contents (Elt F) :=
  concatenate S1700000 0 [⟨S1600000, (shapeCast _ (extractStridedSlice S1x1600000 ![1, 0] e1 slices_S2x1600000_S1x1600000_1_0) shapeCasts_S1x1600000_S1600000)⟩, ⟨S100000, (iotaInDim S100000 32 0)⟩] concatenates_S1600000_S100000_S1700000_d0

/-- An index vector made ready for a gather: a negative entry counts from the end, and the vector becomes a column. -/
def nrm (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The degree factor: ones added into the destinations, cut below at one, one over the square root. -/
def degR (D : (⟨S1700000, .i32⟩ : BufTy).Contents (Elt F)) : (⟨S100000, .f32⟩ : BufTy).Contents (Elt F) :=
  Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 D) (broadcastInDim S1700000 ![] bcast_S_S1700000 (constant S_ .f32 0x3F800000#32))) (broadcastInDim S100000 ![] bcast_S_S100000 (constant S_ .f32 0x3F800000#32)))

/-- One layer's aggregation of the product P. -/
def aggR (P : (⟨S100000x128, .f32⟩ : BufTy).Contents (Elt F)) (S D : (⟨S1700000, .i32⟩ : BufTy).Contents (Elt F)) (d : (⟨S100000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 D) (mulf (Host.gather gather_S100000x128_S1700000x1_S1700000x128_1_0_n_n_0_1_1128 P (nrm S)) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 d (nrm S)) (Host.gather gather_S100000_S1700000x1_S1700000_n_0_n_n_0_1_1 d (nrm D))))))

/-- The bias added to every row. -/
def biasR (A : (⟨S100000x128, .f32⟩ : BufTy).Contents (Elt F)) (b : (⟨S128, .f32⟩ : BufTy).Contents (Elt F)) : (⟨S100000x128, .f32⟩ : BufTy).Contents (Elt F) :=
  addf A (broadcastInDim S100000x128 ![0, 1] bcast_S1x128_S100000x128_0_1 (broadcastInDim S1x128 ![1] bcast_S128_S1x128_1 b))

/-- The cut at zero. -/
def reluR (A : (⟨S100000x128, .f32⟩ : BufTy).Contents (Elt F)) : (⟨S100000x128, .f32⟩ : BufTy).Contents (Elt F) :=
  maximumf A (broadcastInDim S100000x128 ![] bcast_S_S100000x128 (constant S_ .f32 0x00000000#32))

/-- The features times a weight matrix. -/
def prodR (X : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none X W

/-- The two layers. -/
def refOut (x : (⟨S100000x128, .f32⟩ : BufTy).Contents (Elt F)) (e1 : (⟨S2x1600000, .i32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S100000x128, .f32⟩ : BufTy).Contents (Elt F) :=
  biasR (aggR (prodR (reluR (biasR (aggR (prodR x W1) (srcR e1) (dstR e1) (degR (dstR e1))) b1)) W2) (srcR e1) (dstR e1) (degR (dstR e1))) b2

set_option maxHeartbeats 4000000 in
/-- The run's composed term is refOut of the arguments' launch contents. -/
theorem res_eq (m : (ℓ : Loc nD τ sig) → Buf (Elt F) ℓ) (c : Dev nD) :
    res_main_v85 m c = refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v85 refOut biasR aggR prodR reluR degR nrm srcR dstR
  rfl

end Cert.ReferenceIdeal.RefValue

end
-- ==== Proof.GatherBridge.lean ====
/-
  Array identities over the extended reals used to compare the two programs: what a whole-row gather reads at an
  index, the matrix product as a sum over the contracted axis, the per-edge message written with one scale factor
  per endpoint, and the broadcast and reshape forms of a bias row, a norm column and a degree column read at an index.
-/
import proofs.«139000_j1554778161807_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx
open scoped BigOperators

/-! ## The three gathers read at an index -/

/-- A gather of whole rows of a 100000 × 128 array reads, at (e, j), the array at (row e, j): on axis 0 the clamped
    start index (the axis is collapsed, so no offset), on axis 1 start 0 plus the offset coordinate j. -/
theorem gRows_apply {α : Type} (x : SNd.Idx → α) (idx : IVec SE1 32) (e : Fin 1700000) (j : Fin 128) :
    Host.gather gRows x idx (ix2 e j) = x (ix2 (row idx e) j) := by
  have h0 : gRows.start (ix2 e j) idx (0 : Fin 2) + gRows.batchCoord (ix2 e j) (0 : Fin 2)
      + gRows.offCoord (ix2 e j) (0 : Fin 2) = (row idx e).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ gRows.startIndexMap from List.mem_singleton.mpr rfl)]
    have hsi : gRows.siIdx (ix2 e j) ⟨List.idxOf (0 : Fin 2) gRows.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : gRows.start (ix2 e j) idx (1 : Fin 2) + gRows.batchCoord (ix2 e j) (1 : Fin 2)
      + gRows.offCoord (ix2 e j) (1 : Fin 2) = j.val := by
    rw [GatherDims.batchCoord_eq_zero _ _ _ List.not_mem_nil, Nat.add_zero]
    have hs : gRows.start (ix2 e j) idx (1 : Fin 2) = 0 := by
      unfold GatherDims.start
      rw [dif_neg (show (1 : Fin 2) ∉ gRows.startIndexMap by decide)]
    rw [hs, Nat.zero_add]
    unfold GatherDims.offCoord
    rw [dif_pos (show (1 : Fin 2) ∈ gRows.sKept by decide)]
    rfl
  unfold Host.gather
  congr 1
  funext a
  refine Fin.ext ?_
  match a with
  | ⟨0, _⟩ => exact h0
  | ⟨1, _⟩ => exact h1

/-- A gather of whole rows of a 100000 × 1 column reads, at (e, u), the column at (row e, 0): the offset coordinate on
    axis 1 is u, and the only u is 0. -/
theorem gCol_apply {α : Type} (x : SN1.Idx → α) (idx : IVec SE1 32) (e : Fin 1700000) (u : Fin 1) :
    Host.gather gCol x idx (ix2 e u) = x (ix2 (row idx e) (0 : Fin 1)) := by
  have h0 : gCol.start (ix2 e u) idx (0 : Fin 2) + gCol.batchCoord (ix2 e u) (0 : Fin 2)
      + gCol.offCoord (ix2 e u) (0 : Fin 2) = (row idx e).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ gCol.startIndexMap from List.mem_singleton.mpr rfl)]
    have hsi : gCol.siIdx (ix2 e u) ⟨List.idxOf (0 : Fin 2) gCol.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : gCol.start (ix2 e u) idx (1 : Fin 2) + gCol.batchCoord (ix2 e u) (1 : Fin 2)
      + gCol.offCoord (ix2 e u) (1 : Fin 2) = ((0 : Fin 1) : Fin 1).val := by
    rw [GatherDims.batchCoord_eq_zero _ _ _ List.not_mem_nil, Nat.add_zero]
    have hs : gCol.start (ix2 e u) idx (1 : Fin 2) = 0 := by
      unfold GatherDims.start
      rw [dif_neg (show (1 : Fin 2) ∉ gCol.startIndexMap by decide)]
    rw [hs, Nat.zero_add]
    unfold GatherDims.offCoord
    rw [dif_pos (show (1 : Fin 2) ∈ gCol.sKept by decide)]
    show u.val = 0
    omega
  unfold Host.gather
  congr 1
  funext a
  refine Fin.ext ?_
  match a with
  | ⟨0, _⟩ => exact h0
  | ⟨1, _⟩ => exact h1

/-- A gather of single entries of a vector of 100000 reads, at e, the vector at row e: the one axis is collapsed and
    carries the clamped start index. -/
theorem gVec_apply {α : Type} (x : SN.Idx → α) (idx : IVec SE1 32) (e : Fin 1700000) :
    Host.gather gVec x idx (ix1 e) = x (ix1 (row idx e)) := by
  have h0 : gVec.start (ix1 e) idx (0 : Fin 1) + gVec.batchCoord (ix1 e) (0 : Fin 1)
      + gVec.offCoord (ix1 e) (0 : Fin 1) = (row idx e).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 1) ∈ gVec.startIndexMap from List.mem_singleton.mpr rfl)]
    have hsi : gVec.siIdx (ix1 e) ⟨List.idxOf (0 : Fin 1) gVec.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-! ## The message of an edge -/

/-- The message of edge e at feature j. Scaling row r of P by the degree factor of r and then reading the row of the
    edge's source, times the degree factor of the edge's target, is the source's row of P times the product of the two
    endpoints' degree factors. Associativity of the product on the extended reals; no finiteness is used. -/
theorem msg_eq (d : SN.Idx → EReal) (dcol : SN1.Idx → EReal)
    (hcol : ∀ r : Fin 100000, dcol (ix2 r (0 : Fin 1)) = d (ix1 r))
    (P Ps : SNd.Idx → EReal)
    (hPs : ∀ (r : Fin 100000) (j : Fin 128), Ps (ix2 r j) = P (ix2 r j) * dcol (ix2 r (0 : Fin 1)))
    (src dst : IVec SE1 32) (e : Fin 1700000) (j : Fin 128) :
    Host.gather gRows Ps src (ix2 e j) * Host.gather gCol dcol dst (ix2 e (0 : Fin 1))
      = Host.gather gRows P src (ix2 e j) * (Host.gather gVec d src (ix1 e) * Host.gather gVec d dst (ix1 e)) := by
  rw [gRows_apply, gCol_apply, gRows_apply, gVec_apply, gVec_apply, hPs, hcol, hcol, mul_assoc]

/-! ## The matrix product -/

/-- The dimension numbers of a plain product of a 100000 × 128 array with a 128 × 128 one: the left operand's axis 1
    is contracted with the right operand's axis 0, no batch axes. -/
abbrev dotNd : DotDims SNd Sdd SNd where
  lhsContracting := [1]
  rhsContracting := [0]
  lhsNonContracting := [0]
  rhsNonContracting := [1]
  lhsBatch := []
  rhsBatch := []
  wf := by decide

/-- On the extended reals the product at (r, j) is the sum over the contracted axis of X(r, k) · W(k, j): the sum over
    the one-axis contraction index set is re-indexed by its one coordinate. -/
theorem dot_apply (X : SNd.Idx → EReal) (W : Sdd.Idx → EReal) (prec : Option ContractPrecision)
    (r : Fin 100000) (j : Fin 128) :
    (Host.dotGeneral dotNd prec (F := Ideal) (φ₁ := .f32) (φ₂ := .f32) X W) (ix2 r j)
      = ∑ k : Fin 128, X (ix2 r k) * W (ix2 k j) := by
  simp only [Host.dotGeneral]
  rw [Ideal.dotGeneral_apply, ← Equiv.sum_comp (contrEquiv1 dotNd 128 rfl rfl).symm]
  refine Finset.sum_congr rfl fun k _ => ?_
  have hk := contrEquiv1_symm_val dotNd 128 rfl rfl k
  have l0 : ∀ q : dotNd.contr.Idx, (dotNd.lhsIdx (ix2 r j) q (0 : Fin 2)).val = r.val := fun q => by
    unfold DotDims.lhsIdx
    rw [dif_neg (show ¬(0 : Fin SNd.rank) ∈ dotNd.lhsBatch by decide),
      dif_pos (show (0 : Fin SNd.rank) ∈ dotNd.lhsNonContracting by decide)]
    rfl
  have r1 : ∀ q : dotNd.contr.Idx, (dotNd.rhsIdx (ix2 r j) q (1 : Fin 2)).val = j.val := fun q => by
    unfold DotDims.rhsIdx
    rw [dif_neg (show ¬(1 : Fin Sdd.rank) ∈ dotNd.rhsBatch by decide),
      dif_pos (show (1 : Fin Sdd.rank) ∈ dotNd.rhsNonContracting by decide)]
    rfl
  have el : dotNd.lhsIdx (ix2 r j) ((contrEquiv1 dotNd 128 rfl rfl).symm k) = ix2 r k :=
    funext fun a => Fin.ext (by
      match a with
      | ⟨0, _⟩ => exact l0 _
      | ⟨1, _⟩ => exact (dotNd.lhsIdx_val_of_single rfl _ _).trans hk)
  have er : dotNd.rhsIdx (ix2 r j) ((contrEquiv1 dotNd 128 rfl rfl).symm k) = ix2 k j :=
    funext fun a => Fin.ext (by
      match a with
      | ⟨0, _⟩ => exact (dotNd.rhsIdx_val_of_single rfl _ _).trans hk
      | ⟨1, _⟩ => exact r1 _)
  rw [el, er]

/-- The same for any record of these dimension numbers, whatever the proof of its side conditions. -/
theorem dot_apply_of (D : DotDims SNd Sdd SNd) (hlc : D.lhsContracting = [1]) (hrc : D.rhsContracting = [0])
    (hln : D.lhsNonContracting = [0]) (hrn : D.rhsNonContracting = [1]) (hlb : D.lhsBatch = []) (hrb : D.rhsBatch = [])
    (X : SNd.Idx → EReal) (W : Sdd.Idx → EReal) (prec : Option ContractPrecision) (r : Fin 100000) (j : Fin 128) :
    (Host.dotGeneral D prec (F := Ideal) (φ₁ := .f32) (φ₂ := .f32) X W) (ix2 r j)
      = ∑ k : Fin 128, X (ix2 r k) * W (ix2 k j) := by
  obtain ⟨lc, rc, ln, rn, lb, rb, wf⟩ := D
  simp only at hlc hrc hln hrn hlb hrb
  subst hlc hrc hln hrn hlb hrb
  exact dot_apply X W prec r j

/-! ## Broadcasts and a reshape read at an index -/

/-- A single row over the features. -/
abbrev S1d : Shape := ⟨2, ![1, 128]⟩

/-- A bias vector b over the features, made a 1 × 128 row and then stretched over the 100000 rows, reads b(j) at (r, j). -/
theorem bcast_bias_apply (b : Sd.Idx → EReal) (h1 : Sd.BroadcastsInDim S1d ![1]) (h2 : S1d.BroadcastsInDim SNd ![0, 1])
    (r : Fin 100000) (j : Fin 128) :
    broadcastInDim SNd ![0, 1] h2 (broadcastInDim S1d ![1] h1 b) (ix2 r j) = b (ix1 j) := by
  refine (broadcastInDim_apply _ h2 _ (ix2 r j) (ix2 (0 : Fin 1) j) ?_).trans ?_
  · intro a
    match a with
    | ⟨0, _⟩ => rfl
    | ⟨1, _⟩ => rfl
  · refine broadcastInDim_apply _ h1 _ (ix2 (0 : Fin 1) j) (ix1 j) ?_
    intro a
    match a with
    | ⟨0, _⟩ => rfl

/-- A vector n over the edges, made a column and then stretched over the 128 features, reads n(e) at (e, j). -/
theorem bcast_norm_apply (n : SE.Idx → EReal) (h1 : SE.BroadcastsInDim SE1 ![0]) (h2 : SE1.BroadcastsInDim SEd ![0, 1])
    (e : Fin 1700000) (j : Fin 128) :
    broadcastInDim SEd ![0, 1] h2 (broadcastInDim SE1 ![0] h1 n) (ix2 e j) = n (ix1 e) := by
  refine (broadcastInDim_apply _ h2 _ (ix2 e j) (ix2 e (0 : Fin 1)) ?_).trans ?_
  · intro a
    match a with
    | ⟨0, _⟩ => rfl
    | ⟨1, _⟩ => rfl
  · refine broadcastInDim_apply _ h1 _ (ix2 e (0 : Fin 1)) (ix1 e) ?_
    intro a
    match a with
    | ⟨0, _⟩ => rfl

/-- A column v over the edges stretched over the 128 features reads v(e, 0) at (e, j). -/
theorem bcast_col_apply (v : SE1.Idx → EReal) (h2 : SE1.BroadcastsInDim SEd ![0, 1]) (e : Fin 1700000) (j : Fin 128) :
    broadcastInDim SEd ![0, 1] h2 v (ix2 e j) = v (ix2 e (0 : Fin 1)) := by
  refine broadcastInDim_apply _ h2 _ (ix2 e j) (ix2 e (0 : Fin 1)) ?_
  intro a
  match a with
  | ⟨0, _⟩ => rfl
  | ⟨1, _⟩ => rfl

/-- A vector d over the nodes reshaped into a column reads d(r) at (r, u): the row-major position of (r, u) in a
    100000 × 1 array is r · 1 + u = r, the position of r in the vector. -/
theorem reshape_col_apply (d : SN.Idx → EReal) (h : SN.ShapeCasts SN1) (r : Fin 100000) (u : Fin 1) :
    shapeCast SN1 d h (ix2 r u) = d (ix1 r) := by
  refine shapeCast_apply d h (ix2 r u) (ix1 r) ?_
  rw [Shape.rowMajor_val_one, Shape.rowMajor_val_two]
  show r.val = r.val * 1 + u.val
  omega

end Cert.Gcn

end
-- ==== Proof.FirstStretch.lean ====
/-
  The first stretch of the idealized kernel program against the reference's own preparation: both build the
  source and destination index vectors (the edges followed by one self loop per node) and the degree factor by the
  same operations of the edge array, the kernel program keeping the degree factor as a column.
-/
import proofs.«139000_j1554778161807_2_alg».proof.Proof.KernelHost
import proofs.«139000_j1554778161807_2_alg».proof.Proof.RefValue
import proofs.«139000_j1554778161807_2_alg».proof.Proof.GatherBridge

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

set_option maxHeartbeats 2000000 in
/-- The source index vector the passes read is the reference's. -/
theorem W1_v3_eq (c : Dev nD) : W1 m ρ c (Proc.devRef .tc main_v3)
    = Cert.ReferenceIdeal.RefValue.srcR (F := Ideal) (m ((c : Thread nD τ).loc main_arg1)) := by
  show StableHlo.after hostOps0 (W0 m ρ c) (Proc.devRef .tc main_v3) = _
  after_results_simp
  unfold Cert.ReferenceIdeal.RefValue.srcR
  rfl

set_option maxHeartbeats 2000000 in
/-- The destination index vector the passes read is the reference's. -/
theorem W1_v6_eq (c : Dev nD) : W1 m ρ c (Proc.devRef .tc main_v6)
    = Cert.ReferenceIdeal.RefValue.dstR (F := Ideal) (m ((c : Thread nD τ).loc main_arg1)) := by
  show StableHlo.after hostOps0 (W0 m ρ c) (Proc.devRef .tc main_v6) = _
  after_results_simp
  unfold Cert.ReferenceIdeal.RefValue.dstR
  rfl

set_option maxHeartbeats 2000000 in
/-- The degree column the passes read is the reference's degree factor, reshaped to a column. -/
theorem W1_v14_eq (c : Dev nD) : W1 m ρ c (Proc.devRef .tc main_v14)
    = shapeCast S100000x1 (Cert.ReferenceIdeal.RefValue.degR (F := Ideal)
        (Cert.ReferenceIdeal.RefValue.dstR (F := Ideal) (m ((c : Thread nD τ).loc main_arg1)))) Facts₀.shapeCasts_S100000_S100000x1 := by
  show StableHlo.after hostOps0 (W0 m ρ c) (Proc.devRef .tc main_v14) = _
  after_results_simp
  unfold Cert.ReferenceIdeal.RefValue.degR Cert.ReferenceIdeal.RefValue.dstR
  rfl

/-- Entry (r, 0) of the degree column is the degree factor of node r. -/
theorem K_col (c : Dev nD) (r : Fin 100000) :
    (W1 m ρ c (Proc.devRef .tc main_v14) : Cert.Gcn.SN1.Idx → EReal) (ix2 r (0 : Fin 1))
      = (Cert.ReferenceIdeal.RefValue.degR (F := Ideal)
          (Cert.ReferenceIdeal.RefValue.dstR (F := Ideal) (m ((c : Thread nD τ).loc main_arg1))) : Cert.Gcn.SN.Idx → EReal) (ix1 r) := by
  rw [W1_v14_eq]
  exact Cert.Gcn.reshape_col_apply _ _ r (0 : Fin 1)

end Cert.KernelIdeal.Chain

end
-- ==== Proof.Bridge.lean ====
/-
  The two programs' host-side building blocks agree: the index columns are the same function, one layer's aggregation
  of the row-scaled product on the kernel's side is the reference's aggregation of the plain product with both
  endpoints' degree factors, and the bias and the cut at zero are the same arrays index by index.
-/
import proofs.«139000_j1554778161807_2_alg».proof.Proof.Spec
import proofs.«139000_j1554778161807_2_alg».proof.Proof.GatherBridge
import proofs.«139000_j1554778161807_2_alg».proof.Proof.KernelHost
import proofs.«139000_j1554778161807_2_alg».proof.Proof.RefValue

noncomputable section

namespace Cert.Bridge

open Idealize.ShloMosaic Idealize.ShloMosaic.ValueIdx Cert.Gcn
open scoped BigOperators

/-- The index column of a gather is the same three operations in both programs. -/
theorem nrm_eq (v : IVec SE 32) :
    Cert.KernelIdeal.Chain.nrm (F := Ideal) v = Cert.ReferenceIdeal.RefValue.nrm (F := Ideal) v := rfl

/-- The row-scaled product is the plain product times the scale column, entry by entry. -/
theorem matScale_eq_prod_mul (X : SNd.Idx → EReal) (W : Sdd.Idx → EReal) (K : SN1.Idx → EReal)
    (r : Fin 100000) (j : Fin 128) :
    matScale X W K (ix2 r j)
      = Cert.ReferenceIdeal.RefValue.prodR (F := Ideal) X W (ix2 r j) * K (ix2 r (0 : Fin 1)) :=
  (matScale_apply X W K r j).trans (congrArg (· * K (ix2 r (0 : Fin 1))) (dot_apply X W none r j).symm)

/-- One layer's aggregation: the two scatter-adds add into the same zero array at the same destination rows, and their
    update arrays agree at every edge and feature by the message law. -/
theorem agg_eq (X : SNd.Idx → EReal) (W : Sdd.Idx → EReal) (S D : IVec SE 32) (d : SN.Idx → EReal) (K : SN1.Idx → EReal)
    (hK : ∀ r : Fin 100000, K (ix2 r (0 : Fin 1)) = d (ix1 r)) :
    Cert.KernelIdeal.Chain.aggK (F := Ideal) (Cert.Gcn.matScale X W K) S D K
      = Cert.ReferenceIdeal.RefValue.aggR (F := Ideal) (Cert.ReferenceIdeal.RefValue.prodR (F := Ideal) X W) S D d := by
  unfold Cert.KernelIdeal.Chain.aggK Cert.ReferenceIdeal.RefValue.aggR
  refine congrArg (Host.scatterAdd _ _ _) ?_
  funext i
  obtain ⟨e, j, rfl⟩ : ∃ (e : Fin 1700000) (j : Fin 128), i = ix2 e j := ⟨_, _, eq_ix2 i⟩
  refine (mulf_apply _ _ _).trans ?_
  refine Eq.trans ?_ (mulf_apply _ _ _).symm
  rw [bcast_col_apply, bcast_norm_apply, mulf_apply]
  exact msg_eq d K hK (Cert.ReferenceIdeal.RefValue.prodR (F := Ideal) X W) (matScale X W K)
    (matScale_eq_prod_mul X W K) (Cert.ReferenceIdeal.RefValue.nrm (F := Ideal) S)
    (Cert.ReferenceIdeal.RefValue.nrm (F := Ideal) D) e j

/-- Adding the bias row: the reference stretches the bias vector over the rows, and the stretched array reads b(j). -/
theorem bias_eq (A : SNd.Idx → EReal) (b : Sd.Idx → EReal) :
    Cert.Gcn.bias A b = Cert.ReferenceIdeal.RefValue.biasR (F := Ideal) A b := by
  funext i
  obtain ⟨r, j, rfl⟩ : ∃ (r : Fin 100000) (j : Fin 128), i = ix2 r j := ⟨_, _, eq_ix2 i⟩
  refine (bias_apply A b r j).trans ?_
  unfold Cert.ReferenceIdeal.RefValue.biasR
  refine Eq.trans ?_ (addf_apply _ _ _).symm
  rw [bcast_bias_apply]

/-- The bias followed by the cut at zero: the reference's zero array reads the float word 0x00000000 everywhere. -/
theorem biasRelu_eq (A : SNd.Idx → EReal) (b : Sd.Idx → EReal) :
    Cert.Gcn.biasRelu A b
      = Cert.ReferenceIdeal.RefValue.reluR (F := Ideal) (Cert.ReferenceIdeal.RefValue.biasR (F := Ideal) A b) := by
  funext i
  obtain ⟨r, j, rfl⟩ : ∃ (r : Fin 100000) (j : Fin 128), i = ix2 r j := ⟨_, _, eq_ix2 i⟩
  have hb : Cert.ReferenceIdeal.RefValue.biasR (F := Ideal) A b (ix2 r j) = A (ix2 r j) + b (ix1 j) :=
    (congrFun (bias_eq A b) (ix2 r j)).symm.trans (bias_apply A b r j)
  refine (biasRelu_apply A b r j).trans ?_
  unfold Cert.ReferenceIdeal.RefValue.reluR
  refine Eq.trans ?_ (maximumf_apply _ _ _).symm
  rw [hb]
  rfl

end Cert.Bridge

end
-- ==== Proof.ValueEq.lean ====
/-
  The two programs' results are one array.  The kernel program ends at bias(L2, b2) over aggK and matScale; the
  reference ends at biasR(aggR(prodR(...))).  Layer by layer: scaling each row of the product by the degree factor of
  its node BEFORE the gather and by the destination's factor after it, or scaling the gathered row by the PRODUCT of
  the two factors, is the same number (multiplication of extended reals is associative), so the two aggregates are
  one scatter-add of equal update arrays; the bias and the cut at zero are the same operations, index by index.
-/
import proofs.«139000_j1554778161807_2_alg».proof.Proof.KernelValue
import proofs.«139000_j1554778161807_2_alg».proof.Proof.FirstStretch
import proofs.«139000_j1554778161807_2_alg».proof.Proof.RefValue
import proofs.«139000_j1554778161807_2_alg».proof.Proof.Bridge

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.RefValue (refOut srcR dstR degR aggR prodR biasR reluR)

variable (m : (ℓ : Loc nD τ sig) → Buf (Elt Ideal) ℓ) (ρ : Dev nD → PrngReg)

/-- The first layer's aggregate is the reference's. -/
theorem L1_eq (c : Dev nD) : L1 m ρ c
    = aggR (F := Ideal) (prodR (F := Ideal) (m ((c : Thread nD τ).loc main_arg0)) (m ((c : Thread nD τ).loc main_arg2)))
        (srcR (F := Ideal) (m ((c : Thread nD τ).loc main_arg1))) (dstR (F := Ideal) (m ((c : Thread nD τ).loc main_arg1)))
        (degR (F := Ideal) (dstR (F := Ideal) (m ((c : Thread nD τ).loc main_arg1)))) := by
  unfold L1
  rw [W1_v3_eq, W1_v6_eq]
  exact Cert.Bridge.agg_eq _ _ _ _ _ _ (K_col m ρ c)

/-- The second layer's aggregate is the reference's. -/
theorem L2_eq (c : Dev nD) : L2 m ρ c
    = aggR (F := Ideal) (prodR (F := Ideal) (reluR (F := Ideal) (biasR (F := Ideal) (L1 m ρ c) (m ((c : Thread nD τ).loc main_arg3)))) (m ((c : Thread nD τ).loc main_arg4)))
        (srcR (F := Ideal) (m ((c : Thread nD τ).loc main_arg1))) (dstR (F := Ideal) (m ((c : Thread nD τ).loc main_arg1)))
        (degR (F := Ideal) (dstR (F := Ideal) (m ((c : Thread nD τ).loc main_arg1)))) := by
  unfold L2 H1
  rw [W1_v3_eq, W1_v6_eq, Cert.Bridge.biasRelu_eq]
  exact Cert.Bridge.agg_eq _ _ _ _ _ _ (K_col m ρ c)

/-- The kernel program's result array is the reference's result term of the same arguments. -/
theorem value_eq (c : Dev nD) : W7 m ρ c (Proc.devRef .tc main_v56)
    = refOut (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  rw [last_eq, Cert.Bridge.bias_eq, L2_eq, L1_eq]
  rfl

end Cert.KernelIdeal.Chain

end
-- ==== Proof.lean ====
/-
  The certificate of a two-layer graph convolution: a program of four pipelined passes (two products scaled by the
  degree factor, two bias passes, the first cut at zero) among host gathers and scatter-adds, against the plain
  reference that scales every gathered row by the product of the two degree factors.

  The three frames: each program's run terminates without a fault and leaves its arguments as launched (for the two
  programs with passes, the run over the seven segments; for the reference, its run with the result dropped).
  Nothing was rewritten on the way to the idealized program, so there is nothing to preserve.
  The value claim: read as extended reals, the kernel program's result array (what the last pass leaves, followed
  back through the segments) and the reference's result term are one function of arguments that agree: the
  aggregates are equal because multiplication is associative, all else is the same operations index by index.
-/
import proofs.«139000_j1554778161807_2_alg».proof.Defs
import proofs.«139000_j1554778161807_2_alg».proof.Proof.Gen.Kernel
import proofs.«139000_j1554778161807_2_alg».proof.Proof.Gen.Kernel.Skeleton
import proofs.«139000_j1554778161807_2_alg».proof.Proof.Gen.Kernel.Launch
import proofs.«139000_j1554778161807_2_alg».proof.Proof.Gen.Kernel.Points
import proofs.«139000_j1554778161807_2_alg».proof.Proof.Gen.Kernel.Frame
import proofs.«139000_j1554778161807_2_alg».proof.Proof.Gen.KernelIdeal
import proofs.«139000_j1554778161807_2_alg».proof.Proof.Gen.KernelIdeal.Skeleton
import proofs.«139000_j1554778161807_2_alg».proof.Proof.Gen.KernelIdeal.Launch
import proofs.«139000_j1554778161807_2_alg».proof.Proof.Gen.KernelIdeal.Points
import proofs.«139000_j1554778161807_2_alg».proof.Proof.Gen.KernelIdeal.Frame
import proofs.«139000_j1554778161807_2_alg».proof.Proof.Gen.ReferenceIdeal
import proofs.«139000_j1554778161807_2_alg».proof.Proof.Gen.Pre_finite_inputs
import proofs.«139000_j1554778161807_2_alg».proof.Proof.Gen.ReferenceIdeal.Run
import proofs.«139000_j1554778161807_2_alg».proof.Proof.KernelRun
import proofs.«139000_j1554778161807_2_alg».proof.Proof.ValueEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's result array at what its last pass leaves, the reference's at its composed
    term; from memories agreeing on the arguments these are equal (ValueEq). -/
theorem algebraic : Cert.algebraic_KernelIdeal_ReferenceIdeal := by
  intro m ρ m' ρ' _ hagree
  refine ⟨fun c => Cert.KernelIdeal.Gen.W7 m ρ c (Proc.devRef .tc Cert.KernelIdeal.main_v56),
    Cert.KernelIdeal.Run.run_last (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1,
    (hagree c).2.2.2.2.1, (hagree c).2.2.2.2.2]
  exact (Cert.KernelIdeal.Chain.value_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
